-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_cst_10)) (v2 : (c : Dev Cert.KernelIdeal.nD) → Buf (Elt Ideal) ((c.tc : Thread Cert.KernelIdeal.nD Cert.KernelIdeal.τ).loc Cert.KernelIdeal.main_v28)) (v3 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_cst_10) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_v29) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_cst_15) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S8192x1 : Shape := ⟨2, ![8192, 1]⟩
abbrev S1x8192 : Shape := ⟨2, ![1, 8192]⟩
abbrev S64x1x1 : Shape := ⟨3, ![64, 1, 1]⟩
abbrev S128x1 : Shape := ⟨2, ![128, 1]⟩
abbrev S1x1x1 : Shape := ⟨3, ![1, 1, 1]⟩
abbrev S128x256 : Shape := ⟨2, ![128, 256]⟩
abbrev S128x8192 : Shape := ⟨2, ![128, 8192]⟩
abbrev S128 : Shape := ⟨1, ![128]⟩
abbrev S1 : Shape := ⟨1, ![1]⟩
abbrev S1x1 : Shape := ⟨2, ![1, 1]⟩
abbrev S_ : Shape := ⟨0, ![]⟩
abbrev S1x256 : Shape := ⟨2, ![1, 256]⟩
abbrev S256x8192 : Shape := ⟨2, ![256, 8192]⟩

abbrev nBuf : Space → Nat
  | .hbm => 48
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .bf16⟩
  | .hbm, ⟨3, _⟩ => ⟨S8192x1, .i32⟩
  | .hbm, ⟨4, _⟩ => ⟨S1x8192, .i32⟩
  | .hbm, ⟨5, _⟩ => ⟨S64x1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x256, .f32⟩
  | .hbm, ⟨11, _⟩ => ⟨S256x8192, .f32⟩
  | .hbm, ⟨12, _⟩ => ⟨S1x8192, .f32⟩
  | .hbm, ⟨13, _⟩ => ⟨S8192, .f32⟩
  | .hbm, ⟨14, _⟩ => ⟨S1, .i32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S_, .f32⟩
  | .hbm, ⟨19, _⟩ => ⟨S8192, .f32⟩
  | .hbm, ⟨20, _⟩ => ⟨S8192, .i1⟩
  | .hbm, ⟨21, _⟩ => ⟨S8192, .i1⟩
  | .hbm, ⟨22, _⟩ => ⟨S8192, .i1⟩
  | .hbm, ⟨23, _⟩ => ⟨S_, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .local _ .vmem, ⟨0, _⟩ => ⟨S8192x256, .bf16⟩
  | .local _ .vmem, ⟨1, _⟩ => ⟨S1x8192, .i32⟩
  | .local _ .vmem, ⟨2, _⟩ => ⟨S128x1, .i32⟩
  | .local _ .vmem, ⟨3, _⟩ => ⟨S128x1, .i32⟩
  | .local _ .vmem, ⟨4, _⟩ => ⟨S1x1x1, .f32⟩
  | .local _ .vmem, ⟨5, _⟩ => ⟨S1x1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_call1_v0 : Ref sig .tc := ⟨.hbm, 35, rfl⟩
abbrev main_call1_v1 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_cst_9 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_10 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
def k0_off1 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8192x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8192 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S8192_S8192x1 : S8192.ShapeCasts S8192x1
  shapeCasts_S8192_S1x8192 : S8192.ShapeCasts S1x8192
  h_S128x256 : 0 < S128x256.numel
  shapeCasts_S128x256_S128x256 : S128x256.ShapeCasts S128x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  reduces_S128x8192_S128 : S128x8192.Reduces [1] S128
  shapeCasts_S128_S128x1 : S128.ShapeCasts S128x1
  reduces_S128x1_S1 : S128x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S64x1x1_S_d0_1_2 : S64x1x1.ReducesTo [0, 1, 2] S_
  h_S_ : 0 < S_.numel
  slices_S8192x256_S1x256_8191_0 : S8192x256.Slices ![8191, 0] S1x256
  transposes_S8192x256_S256x8192_1_0 : S8192x256.Transposes [1, 0] S256x8192
  shapeCasts_S1x8192_S8192 : S1x8192.ShapeCasts S8192
  slices_S8192_S1_8191 : S8192.Slices ![8191] S1
  shapeCasts_S1_S_ : S1.ShapeCasts S_
  bcast_S_S8192 : S_.BroadcastsInDim S8192 (![] : Fin 0 → Fin S8192.rank)
  reducesTo_S8192_S_d0 : S8192.ReducesTo [0] S_
  dot_S128x256_S8192x256_S128x8192_1_1_0_0_n_n_wf : DotDims.WF S128x256 S8192x256 S128x8192 [1] [1] [0] [0] [] []
  dot_S1x256_S256x8192_S1x8192_1_0_0_1_n_n_wf : DotDims.WF S1x256 S256x8192 S1x8192 [1] [0] [0] [1] [] []
  hrank0 : 0 < grid0.rank
  k0_mult1_dvd : ∀ i : grid0.Coords, 128 ∣ (k0_mult1 i).toNat
  k0_off1_inb : ∀ i : grid0.Coords, ∀ a, (k0_off1 i) a + S128x256.size a ≤ S8192x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S8192x256.size a
  hwx0_0 : ∀ i : grid0.Coords, EltTy.bits .bf16 = 32 ∨ (Rect.block (s := S8192x256) S8192x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .i32 = 32 ∨ (Rect.block (s := S1x8192) S1x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .i32 = 32 ∨ (Rect.block (s := S8192x1) S128x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S64x1x1.size a
  hwx0_3 : ∀ i : grid0.Coords, EltTy.bits .f32 = 32 ∨ (Rect.block (s := S64x1x1) S1x1x1.size (cc0_transform_3 i) (hinb0_3 i)).WholeWords (EltTy.packing .f32)

variable [Facts₀]

def dot_S128x256_S8192x256_S128x8192_1_1_0_0_n_n : DotDims S128x256 S8192x256 S128x8192 where
  lhsContracting := [1]
  rhsContracting := [1]
  lhsNonContracting := [0]
  rhsNonContracting := [0]
  lhsBatch := []
  rhsBatch := []
  wf := dot_S128x256_S8192x256_S128x8192_1_1_0_0_n_n_wf
def dot_S1x256_S256x8192_S1x8192_1_0_0_1_n_n : DotDims S1x256 S256x8192 S1x8192 where
  lhsContracting := [1]
  rhsContracting := [0]
  lhsNonContracting := [0]
  rhsNonContracting := [1]
  lhsBatch := []
  rhsBatch := []
  wf := dot_S1x256_S256x8192_S1x8192_1_0_0_1_n_n_wf

abbrev win0_0 : Pipeline.Window sig grid0 :=
  Pipeline.Window.ofSpec (Memref.whole main_v0) S8192x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192 : Shape := ⟨1, ![8192]⟩
abbrev S256x8192 : Shape := ⟨2, ![256, 8192]⟩
abbrev S8192x8192 : Shape := ⟨2, ![8192, 8192]⟩
abbrev S8192x1 : Shape := ⟨2, ![8192, 1]⟩
abbrev S1x8192 : Shape := ⟨2, ![1, 8192]⟩
abbrev S_ : Shape := ⟨0, ![]⟩

abbrev nBuf : Space → Nat
  | .hbm => 73
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S256x8192, .f32⟩
  | .hbm, ⟨3, _⟩ => ⟨S8192x8192, .f32⟩
  | .hbm, ⟨4, _⟩ => ⟨S8192x1, .i32⟩
  | .hbm, ⟨5, _⟩ => ⟨S1x8192, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .i1⟩
  | .hbm, ⟨12, _⟩ => ⟨S8192x8192, .i1⟩
  | .hbm, ⟨13, _⟩ => ⟨S8192x8192, .i1⟩
  | .hbm, ⟨14, _⟩ => ⟨S_, .f32⟩
  | .hbm, ⟨15, _⟩ => ⟨S8192x8192, .f32⟩
  | .hbm, ⟨16, _⟩ => ⟨S8192x8192, .i1⟩
  | .hbm, ⟨17, _⟩ => ⟨S8192x8192, .i1⟩
  | .hbm, ⟨18, _⟩ => ⟨S_, .f32⟩
  | .hbm, ⟨19, _⟩ => ⟨S8192x8192, .f32⟩
  | .hbm, ⟨20, _⟩ => ⟨S8192x8192, .i1⟩
  | .hbm, ⟨21, _⟩ => ⟨S8192x8192, .i1⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1x8192, .f32⟩
  | .hbm, ⟨41, _⟩ => ⟨S8192, .f32⟩
  | .hbm, ⟨42, _⟩ => ⟨S1x8192, .i1⟩
  | .hbm, ⟨43, _⟩ => ⟨S8192, .i1⟩
  | .hbm, ⟨44, _⟩ => ⟨S1x8192, .i1⟩
  | .hbm, ⟨45, _⟩ => ⟨S8192, .i1⟩
  | .hbm, ⟨46, _⟩ => ⟨S_, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S_, .f32⟩
  | .hbm, ⟨52, _⟩ => ⟨S8192, .i32⟩
  | .hbm, ⟨53, _⟩ => ⟨S_, .i32⟩
  | .hbm, ⟨54, _⟩ => ⟨S_, .i32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S_, .f32⟩
  | .hbm, ⟨64, _⟩ => ⟨S_, .f32⟩
  | .hbm, ⟨65, _⟩ => ⟨S8192, .i32⟩
  | .hbm, ⟨66, _⟩ => ⟨S_, .i32⟩
  | .hbm, ⟨67, _⟩ => ⟨S_, .i32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_call1_v0 : Ref sig .tc := ⟨.hbm, 32, rfl⟩
abbrev main_call1_v1 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_call2_v0 : Ref sig .tc := ⟨.hbm, 47, rfl⟩
abbrev main_call2_v1 : Ref sig .tc := ⟨.hbm, 48, rfl⟩
abbrev main_v31 : Ref sig .tc := ⟨.hbm, 49, rfl⟩
abbrev main_cst_9 : Ref sig .tc := ⟨.hbm, 50, rfl⟩
abbrev main_v32 : Ref sig .tc := ⟨.hbm, 51, rfl⟩
abbrev main_v33 : Ref sig .tc := ⟨.hbm, 52, rfl⟩
abbrev main_c : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_cst_11 : Ref sig .tc := ⟨.hbm, 59, rfl⟩
abbrev main_call3_v0 : Ref sig .tc := ⟨.hbm, 60, rfl⟩
abbrev main_call3_v1 : Ref sig .tc := ⟨.hbm, 61, rfl⟩
abbrev main_v38 : Ref sig .tc := ⟨.hbm, 62, rfl⟩
abbrev main_cst_12 : Ref sig .tc := ⟨.hbm, 63, rfl⟩
abbrev main_v39 : Ref sig .tc := ⟨.hbm, 64, rfl⟩
abbrev main_v40 : Ref sig .tc := ⟨.hbm, 65, rfl⟩
abbrev main_c_13 : Ref sig .tc := ⟨.hbm, 66, rfl⟩
abbrev main_v41 : Ref sig .tc := ⟨.hbm, 67, rfl⟩
abbrev main_v42 : Ref sig .tc := ⟨.hbm, 68, rfl⟩
abbrev main_cst_14 : Ref sig .tc := ⟨.hbm, 69, rfl⟩
abbrev main_v43 : Ref sig .tc := ⟨.hbm, 70, rfl⟩
abbrev main_v44 : Ref sig .tc := ⟨.hbm, 71, rfl⟩
abbrev main_cst_15 : Ref sig .tc := ⟨.hbm, 72, rfl⟩

abbrev nD : Nat := 1
abbrev τ : Topo := Topo.v7x

variable {F : FTy → Type} [FloatOps F]

class Facts₀ : Prop where
  transposes_S8192x256_S256x8192_1_0 : S8192x256.Transposes [1, 0] S256x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  h_S_ : 0 < S_.numel
  slices_S8192x8192_S1x8192_8191_0 : S8192x8192.Slices ![8191, 0] S1x8192
  shapeCasts_S1x8192_S8192 : S1x8192.ShapeCasts S8192
  bcast_S_S8192 : S_.BroadcastsInDim S8192 (![] : Fin 0 → Fin S8192.rank)
  reducesTo_S8192_S_d0 : S8192.ReducesTo [0] S_
  natLt_1_32 : 1 < 32
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KernelPiece.lean ====
/-
  What the kernel body leaves in the output block.  The body loads rows `128·t … 128·t+127` of the
  staged embeddings (a rectangle at a computed offset), the whole staged embeddings, the block's label
  column and the label row, and stores ONE value through the whole `[1,1,1]` block: its arithmetic
  (`k0_pay1`) of those four loads.  So what the run leaves is that arithmetic of the loads.
-/
import proofs.«124296_j27135603376234_2_alg».proof.Proof.Gen.KernelIdeal.Frame
import Idealize.ShloMosaic.Lib.Pipeline.Value

set_option maxRecDepth 16384

noncomputable section

namespace Cert.KernelIdeal.Piece

open Cert.KernelIdeal Cert.KernelIdeal.Gen Idealize.ShloMosaic Idealize.ShloMosaic.TcCoe Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The rows of the staged embeddings the body loads at grid point `i`: the rectangle of 128 rows at the computed offset. -/
abbrev rows (i : grid0.Coords) (x0 : Vec F S8192x256 .bf16) : Vec F S128x256 .bf16 :=
  View.ld x0 (Rect.unit (s := S8192x256) (k0_off1 i) S128x256.size (k0_off1_inb i))

/-- The output block after the body: the body's arithmetic of its four loads. -/
theorem out_eq (c : Dev nD) (i : grid0.Coords) (arg1 : Memref sig .tc .vmem S8192x256 .bf16) (harg1 : arg1.IsWhole) (arg2 : Memref sig .tc .vmem S1x8192 .i32) (harg2 : arg2.IsWhole) (arg3 : Memref sig .tc .vmem S128x1 .i32) (harg3 : arg3.IsWhole) (arg4 : Memref sig .tc .vmem S1x1x1 .f32) (harg4 : arg4.IsWhole)
    (x0 : Vec F S8192x256 .bf16) (x1 : Vec F S1x8192 .i32) (x2 : Vec F S128x1 .i32) :
    out0_A_3 c i arg1 harg1 arg2 harg2 arg3 harg3 arg4 harg4 x0 x1 x2 = k0_pay1 (rows i x0) x0 x2 x1 := by
  unfold out0_A_3
  rw [View.read_writes_eq_canon _ _ _ (cover0_A_3 c i arg1 harg1 arg2 harg2 arg3 harg3 arg4 harg4 x0 x1 x2)]
  unfold kernelRun0_A
  dsimp only
  rw [View.canon_unit_zero hz3]
  simp only [View.readAt_eq_ld, harg1.read_unread, harg2.read_unread, harg3.read_unread,
    View.ld_unit_zero (S := S8192x256) hz2, View.ld_unit_zero (S := S128x1) hz2, View.ld_unit_zero (S := S1x8192) hz2]

end Cert.KernelIdeal.Piece

end
-- ==== Proof.Spec.lean ====
/-
  The vocabulary both programs are read in.  Every quantity is a function of the two argument arrays:
  the embeddings `x : [8192, 256]` (extended reals) and the labels `tg : [8192]` (32-bit words).

  * `sim x i j` is the similarity of rows `i` and `j`: the sum over the 256 features of the products.
  * `same tg i j` is the bit "rows `i` and `j` carry the same label".
  * `cell sm s` is what one pair contributes to the loss in the fused form: for a same-label pair
    `1 - s` when `s` is below the first margin, for a different-label pair `s` when it is above the
    second margin, and zero otherwise.
  * `posCell` and `negCell` are the two-pass form of the same contribution: the same-label pass also asks
    `s < 1`, which the first margin (below one) already implies.
  * `blockLoss x tg t` is the contribution of the 128 rows of block `t` against all 8192 rows.
  * `posMask`, `negMask` are the last row's same-label-and-below-one and different-label masks.
-/
import Idealize.ShloMosaic.PureOps.Ideal
import Idealize.ShloMosaic.Lib.ValueIdx

noncomputable section

open scoped BigOperators

namespace Cert.Spec

open Idealize.ShloMosaic Idealize.ShloMosaic.ValueIdx

/-- The embeddings' shape. -/
abbrev SX : Shape := ⟨2, ![8192, 256]⟩
/-- The labels' shape. -/
abbrev ST : Shape := ⟨1, ![8192]⟩

/-- The float literal one. -/
def one : EReal := Ideal.ofBits .f32 0x3F800000#32
/-- The same-label margin: the float nearest nine tenths, which is below one. -/
def marginSame : EReal := Ideal.ofBits .f32 0x3F666666#32
/-- The different-label margin: one half. -/
def marginDiff : EReal := Ideal.ofBits .f32 0x3F000000#32
/-- The float literal zero. -/
def zero : EReal := Ideal.ofBits .f32 0x00000000#32

/-- The similarity of rows `i` and `j`. -/
def sim (x : SX.Idx → EReal) (i j : Fin 8192) : EReal := ∑ k : Fin 256, x (ix2 i k) * x (ix2 j k)

/-- Rows `i` and `j` carry the same label. -/
def same (tg : ST.Idx → BitVec 32) (i j : Fin 8192) : BitVec 1 := IntOp.cmpi .eq (tg (ix1 i)) (tg (ix1 j))

/-- One pair's contribution, fused: selected by the label bit between the two margin tests. -/
def cell (sm : BitVec 1) (s : EReal) : EReal :=
  Scalar.select sm
    (Scalar.select (Ideal.cmp .olt s marginSame) (one - s) zero)
    (Scalar.select (Ideal.cmp .ogt s marginDiff) s zero)

/-- One pair's same-label contribution in the two-pass form. -/
def posCell (sm : BitVec 1) (s : EReal) : EReal :=
  Scalar.select (IntOp.andi (IntOp.andi sm (Ideal.cmp .olt s one)) (Ideal.cmp .olt s marginSame)) (one - s) zero

/-- One pair's different-label contribution in the two-pass form. -/
def negCell (sm : BitVec 1) (s : EReal) : EReal :=
  Scalar.select (IntOp.andi (~~~sm) (Ideal.cmp .ogt s marginDiff)) s zero

/-- Row `r` of block `t` is row `128 t + r` of the array. -/
def row (t : Fin 64) (r : Fin 128) : Fin 8192 := ⟨128 * t.val + r.val, by omega⟩

/-- Block `t`'s partial loss: its 128 rows against every row. -/
def blockLoss (x : SX.Idx → EReal) (tg : ST.Idx → BitVec 32) (t : Fin 64) : EReal :=
  ∑ r : Fin 128, ∑ j : Fin 8192, cell (same tg (row t r) j) (sim x (row t r) j)

/-- The last row. -/
def last : Fin 8192 := ⟨8191, by omega⟩

/-- The last row's same-label pairs with similarity below one. -/
def posMask (x : SX.Idx → EReal) (tg : ST.Idx → BitVec 32) (j : Fin 8192) : BitVec 1 :=
  IntOp.andi (same tg last j) (Ideal.cmp .olt (sim x last j) one)

/-- The last row's different-label pairs. -/
def negMask (tg : ST.Idx → BitVec 32) (j : Fin 8192) : BitVec 1 := ~~~(same tg last j)

end Cert.Spec

end
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.KernelArray.lean ====
/-
  The array of per-block partial losses after the kernel's region.

  The region's windows: window 0 stages the whole embeddings array (read at Ideal, the narrowing format
  change before the region is the identity), window 1 the labels as a row [1, 8192], window 2 block `t`
  of the labels as a column [128, 1] (rows `128·t … 128·t + 127`), window 3 is the output [64, 1, 1] written
  one entry per grid point.  At point `t` the body also reads rows `128·t … 128·t + 127` of the staged
  embeddings.  So, by the body's arithmetic read at its one index, what point `t` writes back is block
  `t`'s loss; the 64 blocks cover the array, whose entry `t` therefore ends at block `t`'s loss.
-/
import proofs.«124296_j27135603376234_2_alg».proof.Proof.KernelPiece
import proofs.«124296_j27135603376234_2_alg».proof.Proof.Spec
import proofs.«124296_j27135603376234_2_alg».proof.Proof.LibColumns
import proofs.«124296_j27135603376234_2_alg».proof.Proof.LibRowCast
import Idealize.ShloMosaic.Lib.Pipeline.Value
import Idealize.ShloMosaic.Lib.StableHlo.Run
import Idealize.ShloMosaic.Lib.ValueIdx

set_option maxRecDepth 16384
noncomputable section
namespace Cert.KernelIdeal.Arr
open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

abbrev xs (c : Dev nD) : Cert.Spec.SX.Idx → EReal := m ((c : Thread nD τ).loc main_arg0)
abbrev tgs (c : Dev nD) : Cert.Spec.ST.Idx → BitVec 32 := m ((c : Thread nD τ).loc main_arg1)

theorem arr_v0 (c : Dev nD) : (V m c main_v0 : S8192x256.Idx → EReal) = xs m c := by
  show StableHlo.after hostOps0 (fun b => m (c, b)) (Proc.devRef .tc main_v0) = _
  after_results; rfl

theorem arr_v1 (c : Dev nD) : (V m c main_v1 : S8192x1.Idx → BitVec 32) = shapeCast S8192x1 (tgs m c) shapeCasts_S8192_S8192x1 := by
  show StableHlo.after hostOps0 (fun b => m (c, b)) (Proc.devRef .tc main_v1) = _
  after_results; rfl

theorem arr_v2 (c : Dev nD) : (V m c main_v2 : S1x8192.Idx → BitVec 32) = shapeCast S1x8192 (tgs m c) shapeCasts_S8192_S1x8192 := by
  show StableHlo.after hostOps0 (fun b => m (c, b)) (Proc.devRef .tc main_v2) = _
  after_results; rfl

theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0
    ∧ (grid0.coords t 0).val = t.val :=
  (by decide +kernel : ∀ t : Fin grid0.N, _)

/-- The grid point as a block number. -/
def blockOf (t : Fin cfg0.N) : Fin 64 := ⟨t.val, by have := t.isLt; have : cfg0.N = 64 := N_0; omega⟩

theorem blk0 (c : Dev nD) (t : Fin cfg0.N) (y : S8192x256.Idx) : iblk m c 0 t y = xs m c y := by
  show V m c main_v0 (((cfg0.win 0).blk t).view.emb y) = _
  rw [arr_v0]
  obtain ⟨e0, e1, -⟩ := idx_facts t
  refine congrArg (xs m c) ?_
  funext a; apply Fin.ext
  match a with
  | ⟨0, _⟩ => show win0_0.index t (0 : Fin 2) * 8192 + 1 * (y 0).val = (y 0).val; omega
  | ⟨1, _⟩ => show win0_0.index t (1 : Fin 2) * 256 + 1 * (y 1).val = (y 1).val; omega

theorem blk1 (c : Dev nD) (t : Fin cfg0.N) (j : Fin 8192) : iblk m c 1 t (ix2 (0 : Fin 1) j) = tgs m c (ix1 j) := by
  show V m c main_v2 (((cfg0.win 1).blk t).view.emb (ix2 (0 : Fin 1) j)) = _
  rw [arr_v2]
  obtain ⟨-, -, e0, e1, -⟩ := idx_facts t
  have h : ((cfg0.win 1).blk t).view.emb (ix2 (0 : Fin 1) j) = ix2 (0 : Fin 1) j := by
    funext a; apply Fin.ext
    match a with
    | ⟨0, _⟩ => show win0_1.index t (0 : Fin 2) * 1 + 1 * 0 = 0; omega
    | ⟨1, _⟩ => show win0_1.index t (1 : Fin 2) * 8192 + 1 * j.val = j.val; omega
  rw [h]
  exact Cert.RowCast.shapeCast_row_apply _ _ _ _

theorem blk2 (c : Dev nD) (t : Fin cfg0.N) (r : Fin 128) : iblk m c 2 t (ix2 r (0 : Fin 1)) = tgs m c (ix1 (Cert.Spec.row (blockOf t) r)) := by
  show V m c main_v1 (((cfg0.win 2).blk t).view.emb (ix2 r (0 : Fin 1))) = _
  rw [arr_v1]
  obtain ⟨-, -, -, -, e0, e1, -⟩ := idx_facts t
  have h : ((cfg0.win 2).blk t).view.emb (ix2 r (0 : Fin 1)) = ix2 (Cert.Spec.row (blockOf t) r) (0 : Fin 1) := by
    funext a; apply Fin.ext
    match a with
    | ⟨0, _⟩ => show win0_2.index t (0 : Fin 2) * 128 + 1 * r.val = 128 * t.val + r.val; omega
    | ⟨1, _⟩ => show win0_2.index t (1 : Fin 2) * 1 + 1 * 0 = 0; omega
  rw [h]
  exact Cert.Columns.shapeCast_a_a1_apply _ _ _ _

theorem rows_apply (t : Fin cfg0.N) (x0 : Vec Ideal S8192x256 .bf16) (r : Fin 128) (k : Fin 256) :
    Cert.KernelIdeal.Piece.rows (grid0.coords t) x0 (ix2 r k) = x0 (ix2 (Cert.Spec.row (blockOf t) r) k) := by
  obtain ⟨-, -, -, -, -, -, -, -, -, eg⟩ := idx_facts t
  show x0 ((Rect.unit (s := S8192x256) (k0_off1 (grid0.coords t)) S128x256.size (k0_off1_inb (grid0.coords t))).emb (ix2 r k)) = _
  refine congrArg x0 ?_
  funext a; apply Fin.ext
  match a with
  | ⟨0, _⟩ =>
    show k0_off1 (grid0.coords t) (0 : Fin 2) + 1 * r.val = 128 * t.val + r.val
    have e : k0_off1 (grid0.coords t) (0 : Fin 2) = 128 * (grid0.coords t 0).val := congrFun (k0_off1_eq (grid0.coords t)) 0
    omega
  | ⟨1, _⟩ =>
    show k0_off1 (grid0.coords t) (1 : Fin 2) + 1 * k.val = k.val
    have e : k0_off1 (grid0.coords t) (1 : Fin 2) = 0 := congrFun (k0_off1_eq (grid0.coords t)) 1
    omega

/-- The body's arithmetic read at its one index: the double sum over the block's rows and all columns of the fused cell. -/
def PayEq : Prop := ∀ (v3 : Vec Ideal S128x256 .bf16) (v5 : Vec Ideal S8192x256 .bf16) (v8 : Vec Ideal S128x1 .i32) (v10 : Vec Ideal S1x8192 .i32) (y : S1x1x1.Idx),
    k0_pay1 (F := Ideal) v3 v5 v8 v10 y
      = ∑ r : Fin 128, ∑ j : Fin 8192,
          Cert.Spec.cell (IntOp.cmpi .eq (v8 (ix2 r (0 : Fin 1))) (v10 (ix2 (0 : Fin 1) j))) (∑ k : Fin 256, v3 (ix2 r k) * v5 (ix2 j k))

/-- The array of partial losses: entry `t` is block `t`'s loss. -/
def G (c : Dev nD) : S64x1x1.Idx → EReal := fun i => Cert.Spec.blockLoss (xs m c) (tgs m c) ⟨(i 0).val, (i 0).isLt⟩

/-- What point `t` writes back is block `t` of the array of partial losses. -/
theorem flushed_eq (hpay : PayEq) (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold outsAt0
  rw [Cert.KernelIdeal.Piece.out_eq]
  funext y
  show k0_pay1 (F := Ideal) _ _ _ _ y = G m c (((cfg0.win 3).blk t).view.emb y)
  rw [hpay]
  obtain ⟨-, -, -, -, -, -, e0, e1, e2, -⟩ := idx_facts t
  have hE : ((cfg0.win 3).blk t).view.emb y = ix3 (blockOf t) (0 : Fin 1) (0 : Fin 1) := by
    funext a; apply Fin.ext
    match a with
    | ⟨0, _⟩ => show win0_3.index t (0 : Fin 3) * 1 + 1 * (y 0).val = t.val; have h0 : (y 0).val < 1 := (y 0).isLt; omega
    | ⟨1, _⟩ => show win0_3.index t (1 : Fin 3) * 1 + 1 * (y 1).val = 0; have h1 : (y 1).val < 1 := (y 1).isLt; omega
    | ⟨2, _⟩ => show win0_3.index t (2 : Fin 3) * 1 + 1 * (y 2).val = 0; have h2 : (y 2).val < 1 := (y 2).isLt; omega
  rw [hE]
  show _ = Cert.Spec.blockLoss (xs m c) (tgs m c) (blockOf t)
  unfold Cert.Spec.blockLoss
  refine Finset.sum_congr rfl fun r _ => Finset.sum_congr rfl fun j _ => ?_
  have hs : (∑ k : Fin 256, Cert.KernelIdeal.Piece.rows (grid0.coords t) (iblk m c 0 t) (ix2 r k) * iblk m c 0 t (ix2 j k))
      = Cert.Spec.sim (xs m c) (Cert.Spec.row (blockOf t) r) j := by
    unfold Cert.Spec.sim
    refine Finset.sum_congr rfl fun k _ => ?_
    exact congrArg₂ (· * ·) ((rows_apply t (iblk m c 0 t) r k).trans (blk0 m c t _)) (blk0 m c t _)
  rw [hs, blk2 m c t r, blk1 m c t j]
  rfl

/-- Every entry of the array is in the block of its own first coordinate. -/
theorem cover (i : S64x1x1.Idx) : ∃ t : Fin cfg0.N, (cfg0.win 3).flush t = true ∧ i ∈ ((cfg0.win 3).blk t).view.set := by
  have hN : cfg0.N = 64 := N_0
  have hi0 : (i 0).val < 64 := (i 0).isLt
  have hi1 : (i 1).val < 1 := (i 1).isLt
  have hi2 : (i 2).val < 1 := (i 2).isLt
  let tt : Fin cfg0.N := ⟨(i 0).val, by omega⟩
  have ett : tt.val = (i 0).val := rfl
  refine ⟨tt, flush0_3 tt, ?_⟩
  obtain ⟨-, -, -, -, -, -, e0, e1, e2, -⟩ := idx_facts tt
  show i ∈ ((View.whole main_v3).slice (win0_3.rect tt)).set
  rw [View.set_slice_whole, Rect.mem_set_unit]
  intro a
  match a with
  | ⟨0, _⟩ => show win0_3.index tt (0 : Fin 3) * 1 ≤ (i 0).val ∧ (i 0).val < win0_3.index tt (0 : Fin 3) * 1 + 1; omega
  | ⟨1, _⟩ => show win0_3.index tt (1 : Fin 3) * 1 ≤ (i 1).val ∧ (i 1).val < win0_3.index tt (1 : Fin 3) * 1 + 1; omega
  | ⟨2, _⟩ => show win0_3.index tt (2 : Fin 3) * 1 ≤ (i 2).val ∧ (i 2).val < win0_3.index tt (2 : Fin 3) * 1 + 1; omega

/-- The array of partial losses after the run. -/
theorem final (hpay : PayEq) (c : Dev nD) : (dats m 0 c).arrAt 3 cfg0.N = G m c :=
  (dats m 0 c).arrAt_eq_of_cover 3 (G m c) (fun t _ => flushed_eq m hpay c t) (cover)

end Cert.KernelIdeal.Arr
end
-- ==== Proof.KernelHost.lean ====
/-
  The program's own host lines after its region, named and read at an index.

  The last row of the embeddings is sliced out as a row [1, 256]; the embeddings are transposed to [256, 8192]; their
  contraction over the 256 features is a row [1, 8192], reshaped to a vector [8192]. At entry j that vector is the sum
  over the features k of x(8191, k) * x(j, k): the similarity of the last row and row j. The last label is sliced,
  reshaped to a scalar, broadcast to [8192] and compared entrywise with the labels: at entry j the bit "row j carries
  the last row's label". The remaining lines are entrywise: the comparison of the similarity with the literal one, the
  conjunction of the two bits, and the complement of the label bit.
-/
import proofs.«124296_j27135603376234_2_alg».proof.Proof.Gen.KernelIdeal
import proofs.«124296_j27135603376234_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.HostRead
open Cert.KernelIdeal Cert.KernelIdeal.Facts₀ Idealize.ShloMosaic Idealize.ShloMosaic.ValueIdx

/-- the last row's similarities, as the kernel's host lines compute them -/
def lastSim (x : FVec Ideal S8192x256 .f32) : FVec Ideal S8192 .f32 :=
  shapeCast S8192 (Host.dotGeneral dot_S1x256_S256x8192_S1x8192_1_0_0_1_n_n none
    (extractStridedSlice S1x256 ![8191, 0] x slices_S8192x256_S1x256_8191_0)
    (transpose S256x8192 [1, 0] x transposes_S8192x256_S256x8192_1_0)) shapeCasts_S1x8192_S8192
/-- 'same label as the last row' -/
def sameLast (tg : IVec S8192 32) : IVec S8192 1 :=
  cmpi .eq (broadcastInDim S8192 ![] bcast_S_S8192 (shapeCast S_ (extractStridedSlice S1 ![8191] tg slices_S8192_S1_8191) shapeCasts_S1_S_)) tg
/-- same label and similarity below one -/
def posMaskK (x : FVec Ideal S8192x256 .f32) (tg : IVec S8192 32) : IVec S8192 1 :=
  andi (sameLast tg) (cmpf .olt (lastSim x) (broadcastInDim S8192 ![] bcast_S_S8192 (constant (F := Ideal) S_ .f32 0x3F800000#32)))

/-- A row [1, b] reshaped to a vector [b] keeps its entries in order: entry j of the vector is the row at (0, j),
    the two indices having the same row-major position. -/
theorem shapeCast_unrow_apply {α : Type} {b : ℕ} (y : (⟨2, ![1, b]⟩ : Shape).Idx → α)
    (h : (⟨2, ![1, b]⟩ : Shape).ShapeCasts ⟨1, ![b]⟩) (j : (⟨1, ![b]⟩ : Shape).Idx) :
    shapeCast ⟨1, ![b]⟩ y h j = y (ix2 (0 : Fin 1) (j 0)) :=
  shapeCast_apply y h j _ (by
    rw [Shape.rowMajor_val_two, Shape.rowMajor_val_one]
    show (0 : ℕ) * b + (j 0).val = (j 0).val
    omega)

/-- A scalar broadcast to a shape reads the scalar at every index. -/
theorem broadcastInDim_scalar_apply {α : Type} {t : Shape} (dims : Fin (⟨0, ![]⟩ : Shape).rank → Fin t.rank)
    (h : (⟨0, ![]⟩ : Shape).BroadcastsInDim t dims) (y : (⟨0, ![]⟩ : Shape).Idx → α) (j : t.Idx) :
    broadcastInDim t dims h y j = y ix0 :=
  broadcastInDim_apply dims h y j ix0 (fun a => a.elim0)

/-- The contraction's left operand index at an output index and a contraction index: the output's row on axis 0. -/
theorem lhs_0 (i : S1x8192.Idx) (q : dot_S1x256_S256x8192_S1x8192_1_0_0_1_n_n.contr.Idx) :
    (dot_S1x256_S256x8192_S1x8192_1_0_0_1_n_n.lhsIdx i q 0).val = (i 0).val := by
  unfold DotDims.lhsIdx
  rw [dif_neg (show ¬(0 : Fin S1x256.rank) ∈ dot_S1x256_S256x8192_S1x8192_1_0_0_1_n_n.lhsBatch by decide),
    dif_pos (show (0 : Fin S1x256.rank) ∈ dot_S1x256_S256x8192_S1x8192_1_0_0_1_n_n.lhsNonContracting by decide)]
  rfl
/-- The contraction coordinate on axis 1. -/
theorem lhs_1 (i : S1x8192.Idx) (q : dot_S1x256_S256x8192_S1x8192_1_0_0_1_n_n.contr.Idx) :
    (dot_S1x256_S256x8192_S1x8192_1_0_0_1_n_n.lhsIdx i q 1).val = (q ⟨0, by decide⟩).val :=
  dot_S1x256_S256x8192_S1x8192_1_0_0_1_n_n.lhsIdx_val_of_single rfl i q
/-- The right operand index: the contraction coordinate on axis 0. -/
theorem rhs_0 (i : S1x8192.Idx) (q : dot_S1x256_S256x8192_S1x8192_1_0_0_1_n_n.contr.Idx) :
    (dot_S1x256_S256x8192_S1x8192_1_0_0_1_n_n.rhsIdx i q 0).val = (q ⟨0, by decide⟩).val :=
  dot_S1x256_S256x8192_S1x8192_1_0_0_1_n_n.rhsIdx_val_of_single rfl i q
/-- The output's column on axis 1. -/
theorem rhs_1 (i : S1x8192.Idx) (q : dot_S1x256_S256x8192_S1x8192_1_0_0_1_n_n.contr.Idx) :
    (dot_S1x256_S256x8192_S1x8192_1_0_0_1_n_n.rhsIdx i q 1).val = (i 1).val := by
  unfold DotDims.rhsIdx
  rw [dif_neg (show ¬(1 : Fin S256x8192.rank) ∈ dot_S1x256_S256x8192_S1x8192_1_0_0_1_n_n.rhsBatch by decide),
    dif_pos (show (1 : Fin S256x8192.rank) ∈ dot_S1x256_S256x8192_S1x8192_1_0_0_1_n_n.rhsNonContracting by decide)]
  rfl

/-- Entry j of the reshaped contraction is the sum over the features of the last row's entry times row j's. -/
theorem lastSim_eq (x : FVec Ideal S8192x256 .f32) : lastSim x = fun j => Cert.Spec.sim x Cert.Spec.last (j 0) := by
  funext j
  unfold lastSim
  refine (shapeCast_unrow_apply _ shapeCasts_S1x8192_S8192 j).trans ?_
  simp only [Host.dotGeneral]
  rw [Ideal.dotGeneral_apply,
    ← Equiv.sum_comp (contrEquiv1 dot_S1x256_S256x8192_S1x8192_1_0_0_1_n_n 256 rfl rfl).symm]
  unfold Cert.Spec.sim
  refine Finset.sum_congr rfl fun k _ => ?_
  have hk := contrEquiv1_symm_val dot_S1x256_S256x8192_S1x8192_1_0_0_1_n_n 256 rfl rfl k
  -- the slice at (0, k) is the array at (8191, k); the transpose at (k, j) is the array at (j, k)
  refine congrArg₂ (· * ·) ?_ ?_
  · exact extractStridedSlice_apply ![8191, 0] x slices_S8192x256_S1x256_8191_0 _ (ix2 Cert.Spec.last k) (fun a => match a with
      | ⟨0, _⟩ => by
        have h0 := lhs_0 (ix2 (0 : Fin 1) (j 0)) ((contrEquiv1 dot_S1x256_S256x8192_S1x8192_1_0_0_1_n_n 256 rfl rfl).symm k)
        show 8191 = 8191 + (dot_S1x256_S256x8192_S1x8192_1_0_0_1_n_n.lhsIdx (ix2 (0 : Fin 1) (j 0)) ((contrEquiv1 dot_S1x256_S256x8192_S1x8192_1_0_0_1_n_n 256 rfl rfl).symm k) 0).val
        rw [h0]
        rfl
      | ⟨1, _⟩ => by
        have h1 := (lhs_1 (ix2 (0 : Fin 1) (j 0)) ((contrEquiv1 dot_S1x256_S256x8192_S1x8192_1_0_0_1_n_n 256 rfl rfl).symm k)).trans hk
        show k.val = 0 + (dot_S1x256_S256x8192_S1x8192_1_0_0_1_n_n.lhsIdx (ix2 (0 : Fin 1) (j 0)) ((contrEquiv1 dot_S1x256_S256x8192_S1x8192_1_0_0_1_n_n 256 rfl rfl).symm k) 1).val
        rw [h1]; omega)
  · exact transpose_apply [1, 0] x transposes_S8192x256_S256x8192_1_0 _ (ix2 (j 0) k) (fun b => match b with
      | ⟨0, _⟩ => ((rhs_0 (ix2 (0 : Fin 1) (j 0)) ((contrEquiv1 dot_S1x256_S256x8192_S1x8192_1_0_0_1_n_n 256 rfl rfl).symm k)).trans hk).symm
      | ⟨1, _⟩ => (rhs_1 (ix2 (0 : Fin 1) (j 0)) ((contrEquiv1 dot_S1x256_S256x8192_S1x8192_1_0_0_1_n_n 256 rfl rfl).symm k)).symm)

/-- Entry j of the broadcast last label compared with the labels is the bit "row j has the last row's label". -/
theorem sameLast_eq (tg : IVec S8192 32) : sameLast tg = fun j => Cert.Spec.same tg Cert.Spec.last (j 0) := by
  funext j
  have h1 : broadcastInDim S8192 ![] bcast_S_S8192
      (shapeCast S_ (extractStridedSlice S1 ![8191] tg slices_S8192_S1_8191) shapeCasts_S1_S_) j
      = tg (ix1 Cert.Spec.last) := by
    refine (broadcastInDim_scalar_apply _ bcast_S_S8192 _ j).trans ?_
    refine (shapeCast_apply _ shapeCasts_S1_S_ ix0 (ix1 (0 : Fin 1)) ?_).trans ?_
    · rw [Shape.rowMajor_val_one]
      exact (Shape.rowMajorPi_zero _ _).symm
    · exact extractStridedSlice_apply ![8191] tg slices_S8192_S1_8191 _ (ix1 Cert.Spec.last) (fun a => match a with
        | ⟨0, _⟩ => rfl)
  show IntOp.cmpi .eq (broadcastInDim S8192 ![] bcast_S_S8192
      (shapeCast S_ (extractStridedSlice S1 ![8191] tg slices_S8192_S1_8191) shapeCasts_S1_S_) j) (tg j)
    = IntOp.cmpi .eq (tg (ix1 Cert.Spec.last)) (tg (ix1 (j 0)))
  exact congrArg₂ (IntOp.cmpi .eq) h1 (congrArg tg (eq_ix1 j))

/-- Entrywise: the label bit and the comparison of the similarity with the literal one. -/
theorem posMaskK_eq (x : FVec Ideal S8192x256 .f32) (tg : IVec S8192 32) : posMaskK x tg = fun j => Cert.Spec.posMask x tg (j 0) := by
  funext j
  have h1 : broadcastInDim S8192 ![] bcast_S_S8192 (constant (F := Ideal) S_ .f32 0x3F800000#32) j = Cert.Spec.one :=
    broadcastInDim_scalar_apply _ bcast_S_S8192 _ j
  show IntOp.andi (sameLast tg j) (Ideal.cmp .olt (lastSim x j)
      (broadcastInDim S8192 ![] bcast_S_S8192 (constant (F := Ideal) S_ .f32 0x3F800000#32) j))
    = IntOp.andi (Cert.Spec.same tg Cert.Spec.last (j 0)) (Ideal.cmp .olt (Cert.Spec.sim x Cert.Spec.last (j 0)) Cert.Spec.one)
  exact congrArg₂ IntOp.andi (congrFun (sameLast_eq tg) j)
    (congrArg₂ (Ideal.cmp .olt) (congrFun (lastSim_eq x) j) h1)

/-- Entrywise: the complement of the label bit. -/
theorem negMaskK_eq (tg : IVec S8192 32) : noti (sameLast tg) = fun j => Cert.Spec.negMask tg (j 0) := by
  funext j
  show ~~~(sameLast tg j) = ~~~(Cert.Spec.same tg Cert.Spec.last (j 0))
  exact congrArg (~~~ ·) (congrFun (sameLast_eq tg) j)

end Cert.KernelIdeal.HostRead

end
-- ==== Proof.KernelSum.lean ====
/-
  The host's sum of the `[64, 1, 1]` array of per-block partial losses over all three axes, from the literal
  zero, read at the extended reals: the initial value plus the sum of every element. The target has rank zero, so
  every element reduces to its one index. The two trailing axes have one entry each, so the index set is the first
  coordinate's range: the sum over the array is the sum over the 64 blocks.
-/
import proofs.«124296_j27135603376234_2_alg».proof.Proof.Gen.KernelIdeal
import proofs.«124296_j27135603376234_2_alg».proof.Proof.Spec
import Idealize.ShloMosaic.Lib.ValueIdx
import Idealize.ShloMosaic.PureOps.Ideal.Laws

noncomputable section

open scoped BigOperators

namespace Cert.KernelIdeal.Sum

open Cert.KernelIdeal Cert.KernelIdeal.Facts₀ Idealize.ShloMosaic Idealize.ShloMosaic.ValueIdx

/-- An index of the `[64, 1, 1]` array is its first coordinate: the other two coordinates are below one, so zero. -/
def blockEquiv : S64x1x1.Idx ≃ Fin 64 where
  toFun i := i 0
  invFun t := ix3 t (0 : Fin 1) (0 : Fin 1)
  left_inv i := by
    funext a
    match a with
    | ⟨0, _⟩ => rfl
    | ⟨1, p⟩ =>
      have h1 : (i ⟨1, p⟩).val < 1 := (i ⟨1, p⟩).isLt
      exact Fin.ext (by show (0 : ℕ) = (i ⟨1, p⟩).val; omega)
    | ⟨2, p⟩ =>
      have h2 : (i ⟨2, p⟩).val < 1 := (i ⟨2, p⟩).isLt
      exact Fin.ext (by show (0 : ℕ) = (i ⟨2, p⟩).val; omega)
  right_inv _ := rfl

/-- The host sum over all three axes is the literal zero plus the sum over the 64 blocks. -/
theorem total_blocks (OUT : FVec Ideal S64x1x1 .f32) (f : Fin 64 → EReal)
    (h : ∀ t : Fin 64, OUT (ix3 t (0 : Fin 1) (0 : Fin 1)) = f t) :
    Host.reduceAdd (F := Ideal) OUT (constant S_ .f32 0x00000000#32) reducesTo_S64x1x1_S_d0_1_2 h_S_
      = fun _ => Cert.Spec.zero + ∑ t : Fin 64, f t := by
  funext j
  -- the rank-zero target: every element reduces to the one index
  refine (Ideal.hostReduceAdd_total reducesTo_S64x1x1_S_d0_1_2 (fun b => b.elim0) OUT
    (constant (F := Ideal) S_ .f32 0x00000000#32 (Shape.Idx.first h_S_)) j).trans ?_
  -- the initial value is the literal zero; the sum over the index set is the sum over the first coordinate
  refine congrArg₂ (· + ·) rfl ?_
  rw [← blockEquiv.symm.sum_comp]
  exact Finset.sum_congr rfl fun t _ => h t

end Cert.KernelIdeal.Sum

end
-- ==== Proof.LibContractLast.lean ====
/-
  A matrix product that contracts the LAST axis of both operands, read at an entry.

  For a left operand l of shape [A, K] and a right operand r of shape [B, K] (the right operand held row by row,
  not transposed), the product contracting axis 1 of each has shape [A, B], and its entry (p, q) is the sum over
  k below K of l (p, k) * r (q, k).  The product's definition sums over the index type of the contracted axes
  and reads the operands at indices assembled from the output index and the contraction index; the tactic below
  re-indexes that sum by k and identifies the two assembled indices with (p, k) and (q, k).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 q k)` for a
    dimension record `D` that contracts axis 1 of both rank-2 operands (extent `K`) and keeps axis 0 of the left
    operand and axis 0 of the right operand as the output's two axes; `SL` and `SR` are the operands' shapes. It
    expects `l`, `r`, `p`, `q` in scope under these names. -/
macro "contract_last " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = q.val := fun c => by
    unfold DotDims.rhsIdx
    rw [dif_neg (show ¬(0 : Fin ($SR).rank) ∈ ($D).rhsBatch by decide), dif_pos (show (0 : Fin ($SR).rank) ∈ ($D).rhsNonContracting by decide)]
    rfl
  have r1 : ∀ c, ((($D).rhsIdx (ValueIdx.ix2 p q) c) 1).val = (c ⟨0, by decide⟩).val := fun c =>
    ($D).rhsIdx_val_of_single rfl (ValueIdx.ix2 p q) c
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 q k := funext fun a => Fin.ext (by
    match a with
    | ⟨0, _⟩ => exact r0 _
    | ⟨1, _⟩ => exact (r1 _).trans hk)
  rw [el, er]))

end Cert.Hand
-- ==== Proof.LibRowSum.lean ====
/-
  The sum of a row of a rank-2 array, read at the row.

  A kernel's vector reduction by addition of an `[a, b]` array along its second axis keeps one value per row.
  Over the extended reals addition is exact, so the value at row `r` is the plain sum over the row's `b` entries,
  `∑ k, src (r, k)`, whatever order the hardware adds them in (`multiReduction_add_row`).
-/
import proofs.«124296_j27135603376234_2_alg».proof.Proof.LibColumns

noncomputable section

namespace Cert.RowSum

open Idealize.ShloMosaic Idealize.ShloMosaic.ValueIdx

/-- A kernel's sum of an `[a, b]` array along its second axis, at the extended reals, read at row `r`: the sum of the
    row's `b` entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact congrArg (fun f => Finset.sum (Finset.univ : Finset (Fin b)) f)
    (funext fun k => congrArg src (Cert.Columns.lift_row h r k))

end Cert.RowSum

end
-- ==== Proof.LibColSum.lean ====
/-
  The sum of a column of a rank-2 array, read at the column.

  A kernel's vector reduction by addition of an [a, b] array along its FIRST axis keeps one value per column. Over
  the extended reals addition is exact, so the value at column j is the plain sum over the column's a entries,
  ∑ k, src (k, j), whatever order the hardware adds them in. The index that a column's result j and a coordinate k
  on the reduced axis name together is (k, j).
-/
import Idealize.ShloMosaic.Lib.ValueIdx
import Idealize.ShloMosaic.Lib.Pipeline.Value
import Idealize.ShloMosaic.PureOps.Ideal.Laws
import Idealize.ShloMosaic.PureOps.Reduce

noncomputable section

namespace Cert.ColSum

open Idealize.ShloMosaic Idealize.ShloMosaic.ValueIdx

/-- Column j of the reduced array with coordinate k put back on the reduced (first) axis is the index (k, j). -/
theorem lift_col {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- A kernel's sum of an [a, b] array along its first axis, at the extended reals, read at column j: the sum of the
    column's a entries. -/
theorem multiReduction_add_col {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  exact congrArg (fun f => Finset.sum (Finset.univ : Finset (Fin a)) f)
    (funext fun k => congrArg src (lift_col h j k))

end Cert.ColSum

end
-- ==== Proof.LibRowBroadcast.lean ====
/-
  A row broadcast down the first axis, read at an index given by coordinates.

  A row, an array of shape [1, b], broadcast along the first axis to [a, b] repeats the row in every one of the
  a rows: at (r, j) it reads the row's entry j, whatever r is. (The companion of the column form, [a, 1]
  broadcast to [a, b], which reads the column's entry r at (r, j).)
-/
import Idealize.ShloMosaic.Lib.Pipeline.Value
import Idealize.ShloMosaic.Lib.ValueIdx

noncomputable section

namespace Cert.RowBroadcast

open Idealize.ShloMosaic Idealize.ShloMosaic.ValueIdx

/-- A row `[1, b]` broadcast along the first axis to `[a, b]` reads, at `(r, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

end Cert.RowBroadcast

end
-- ==== Proof.KernelCell.lean ====
/-
  The kernel body's value at its one index, over the extended reals.

  The body forms the [128, 8192] array of similarities of the block's 128 rows against all 8192 rows (a product
  contracting the 256 features of both operands, added to a zero accumulator), compares the block's labels (a
  column [128, 1]) with all labels (a row [1, 8192]) entry by entry, and selects per pair, by the label bit,
  between "one minus the similarity when it is below the first margin, else zero" and "the similarity when it is
  above the second margin, else zero": that is `Cert.Spec.cell` of the label bit and the similarity. It then
  sums each row's 8192 entries, sums the 128 row sums, and casts the one number up to shape [1, 1, 1].

  Over the extended reals every sum is exact, so the value is the double sum, over the 128 rows and the 8192
  columns, of the pair's cell. Each step below reads one operation at explicit coordinates; the last theorem
  chains them.
-/
import proofs.«124296_j27135603376234_2_alg».proof.Proof.Gen.KernelIdeal.Skeleton
import proofs.«124296_j27135603376234_2_alg».proof.Proof.Spec
import proofs.«124296_j27135603376234_2_alg».proof.Proof.LibContractLast
import proofs.«124296_j27135603376234_2_alg».proof.Proof.LibColumns
import proofs.«124296_j27135603376234_2_alg».proof.Proof.LibRowSum
import proofs.«124296_j27135603376234_2_alg».proof.Proof.LibColSum
import proofs.«124296_j27135603376234_2_alg».proof.Proof.LibRowBroadcast
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Cell
open Cert.KernelIdeal Cert.KernelIdeal.Gen Idealize.ShloMosaic Idealize.ShloMosaic.ValueIdx

/-- The similarity array at `(p, q)`: the product contracts the last axis of both operands and its accumulator is
    zero, so the entry is the sum over the 256 features of the products of row `p` of the left operand and row
    `q` of the right one. -/
theorem matmul_entry (l : FVec Ideal S128x256 .bf16) (r : FVec Ideal S8192x256 .bf16) (p : Fin 128) (q : Fin 8192) :
    matmul (F := Ideal) dot_S128x256_S8192x256_S128x8192_1_1_0_0_n_n none l r (constant (F := Ideal) S128x8192 .f32 0x00000000#32) (ix2 p q)
      = ∑ k : Fin 256, l (ix2 p k) * r (ix2 q k) := by
  refine (Ideal.matmul_constant_zero_apply dot_S128x256_S8192x256_S128x8192_1_1_0_0_n_n none l r (ix2 p q)).trans ?_
  contract_last dot_S128x256_S8192x256_S128x8192_1_1_0_0_n_n S128x256 S8192x256 256

/-- The per-pair array at `(r, j)`, for any similarity array `s`: the label column broadcast along the second axis
    reads label `r` of the block, the label row broadcast along the first axis reads label `j`, and the three
    selects between the two margin tests are the cell of the label bit and `s (r, j)`. -/
theorem pair_entry (s : FVec Ideal S128x8192 .f32) (c : IVec S128x1 32) (w : IVec S1x8192 32) (r : Fin 128) (j : Fin 8192) :
    select (cmpi .eq (broadcastTo S128x8192 c broadcasts_S128x1_S128x8192) (broadcastTo S128x8192 w broadcasts_S1x8192_S128x8192))
        (select (cmpf .olt s (broadcast S128x8192 (Scalar.ofBits (F := Ideal) .f32 0x3F666666#32)))
          (subf (broadcast S128x8192 (Scalar.ofBits (F := Ideal) .f32 0x3F800000#32)) s)
          (broadcast S128x8192 (Scalar.ofBits (F := Ideal) .f32 0x00000000#32)))
        (select (cmpf .ogt s (broadcast S128x8192 (Scalar.ofBits (F := Ideal) .f32 0x3F000000#32))) s
          (broadcast S128x8192 (Scalar.ofBits (F := Ideal) .f32 0x00000000#32))) (ix2 r j)
      = Cert.Spec.cell (IntOp.cmpi .eq (c (ix2 r (0 : Fin 1))) (w (ix2 (0 : Fin 1) j))) (s (ix2 r j)) := by
  have hc : broadcastTo S128x8192 c broadcasts_S128x1_S128x8192 (ix2 r j) = c (ix2 r (0 : Fin 1)) :=
    Cert.Columns.broadcastTo_a1_ab_apply c broadcasts_S128x1_S128x8192 r j
  have hw : broadcastTo S128x8192 w broadcasts_S1x8192_S128x8192 (ix2 r j) = w (ix2 (0 : Fin 1) j) :=
    Cert.RowBroadcast.broadcastTo_1b_ab_apply w broadcasts_S1x8192_S128x8192 r j
  show Scalar.select (IntOp.cmpi .eq (broadcastTo S128x8192 c broadcasts_S128x1_S128x8192 (ix2 r j))
        (broadcastTo S128x8192 w broadcasts_S1x8192_S128x8192 (ix2 r j))) _ _ = _
  rw [hc, hw]
  rfl

/-- The two sums and the casts, for any per-pair array `t`: the sum along the second axis keeps each row's sum of its
    8192 entries; cast to a column, row `r` still holds row `r`'s sum; the sum along the first axis adds the 128 row
    sums; the casts of the one number up to shapes [1, 1] and [1, 1, 1] keep it. Both accumulators are zero, which
    adds nothing. -/
theorem tail_entry (t : FVec Ideal S128x8192 .f32) (y : S1x1x1.Idx) :
    shapeCast S1x1x1 (shapeCast S1x1 (multiReduction .add [0] S1
        (shapeCast S128x1 (multiReduction .add [1] S128 t 0x00000000#32 reduces_S128x8192_S128 (.inl rfl) rfl) shapeCasts_S128_S128x1)
        0x00000000#32 reduces_S128x1_S1 (.inl rfl) rfl) shapeCasts_S1_S1x1) shapeCasts_S1x1_S1x1x1 y
      = ∑ r : Fin 128, ∑ j : Fin 8192, t (ix2 r j) := by
  -- the casts up: every index of shapes [1, 1, 1] and [1, 1] has row-major position 0
  refine (shapeCast_apply _ shapeCasts_S1x1_S1x1x1 y (ix2 (0 : Fin 1) (0 : Fin 1)) (by
    have hy := (S1x1x1.rowMajor y).isLt
    have hn : S1x1x1.numel = 1 := by decide
    rw [Shape.rowMajor_val_two]
    show 0 * 1 + 0 = _
    omega)).trans ?_
  refine (Cert.Columns.shapeCast_a_a1_apply _ shapeCasts_S1_S1x1 (0 : Fin 1) (0 : Fin 1)).trans ?_
  -- the sum of the column of row sums
  refine (Cert.ColSum.multiReduction_add_col _ 0x00000000#32 reduces_S128x1_S1 (.inl rfl) rfl (0 : Fin 1)).trans ?_
  refine Finset.sum_congr rfl fun r _ => ?_
  refine (Cert.Columns.shapeCast_a_a1_apply _ shapeCasts_S128_S128x1 r (0 : Fin 1)).trans ?_
  -- a row's sum
  exact Cert.RowSum.multiReduction_add_row t 0x00000000#32 reduces_S128x8192_S128 (.inl rfl) rfl r

/-- The whole value: the sum over the block's 128 rows and all 8192 columns of the pair's cell. -/
theorem pay_eq (v3 : Vec Ideal S128x256 .bf16) (v5 : Vec Ideal S8192x256 .bf16) (v8 : Vec Ideal S128x1 .i32) (v10 : Vec Ideal S1x8192 .i32) (y : S1x1x1.Idx) :
    k0_pay1 (F := Ideal) v3 v5 v8 v10 y
      = ∑ r : Fin 128, ∑ j : Fin 8192,
          Cert.Spec.cell (IntOp.cmpi .eq (v8 (ix2 r (0 : Fin 1))) (v10 (ix2 (0 : Fin 1) j))) (∑ k : Fin 256, v3 (ix2 r k) * v5 (ix2 j k)) := by
  unfold k0_pay1
  refine (tail_entry _ y).trans ?_
  refine Finset.sum_congr rfl fun r _ => Finset.sum_congr rfl fun j _ => ?_
  refine (pair_entry _ _ _ r j).trans ?_
  rw [shapeCast_self, shapeCast_self, matmul_entry, shapeCast_self, shapeCast_self]

end Cert.KernelIdeal.Cell

end
-- ==== Proof.LibCount.lean ====
/-
  Counting the ones of a mask.  A mask of 8192 bits is summed in two ways: each bit converted to a float
  (read unsigned) and the floats added from the float zero; or each bit widened to a 32-bit word, the words
  added from the word zero, and that one word converted to a float (read signed).  At the ideal instance a
  conversion is exact and the float sum is the exact sum, so both are the number of ones: the word sum is
  the natural sum of the bits modulo 2^32, that sum is at most 8192, hence below 2^31, so the word's
  signed read is the natural sum itself.
-/
import Idealize.ShloMosaic.PureOps.Ideal
import Idealize.ShloMosaic.PureOps.Ideal.Laws
import Idealize.ShloMosaic.PureOps.Reduce
import Idealize.ShloMosaic.Lib.ValueIdx

open scoped BigOperators

namespace Cert.Lib
open Idealize.ShloMosaic

/-- The embedding of the reals into the extended reals commutes with a finite sum. -/
theorem coe_sum_real {ι : Type} (S : Finset ι) (a : ι → ℝ) :
    ∑ i ∈ S, ((a i : ℝ) : EReal) = ((∑ i ∈ S, a i : ℝ) : EReal) := by
  induction S using Finset.cons_induction with
  | empty => simp
  | cons i S hi ih => rw [Finset.sum_cons, Finset.sum_cons, ih, EReal.coe_add]

/-- A fold by 32-bit addition from the zero word is the word of the natural sum of the operands'
    unsigned reads: word addition is addition modulo 2^32. -/
theorem fold_addi_eq_ofNat {ι : Type} (S : Finset ι) (f : ι → BitVec 32) :
    S.fold IntOp.addi 0#32 f = BitVec.ofNat 32 (∑ i ∈ S, (f i).toNat) := by
  induction S using Finset.cons_induction with
  | empty => simp
  | cons i S hi ih =>
    rw [Finset.fold_cons, Finset.sum_cons, ih]
    apply BitVec.eq_of_toNat_eq
    simp [IntOp.addi, BitVec.toNat_add, BitVec.toNat_ofNat]

/-- A natural number below 2^31, as a 32-bit word, reads signed as itself. -/
theorem toInt_ofNat_of_lt (n : Nat) (h : n < 2 ^ 31) : (BitVec.ofNat 32 n).toInt = (n : Int) := by
  have hm : n % 2 ^ 32 = n := Nat.mod_eq_of_lt (by omega)
  simp only [BitVec.toInt, BitVec.toNat_ofNat, hm]
  split_ifs <;> omega

/-- Counting the ones of a mask of 8192 bits: the sum of the bits converted to floats, from the float
    zero, is the conversion of the 32-bit sum of the widened bits, from the word zero. -/
theorem count_mask (msk : IVec ⟨1, ![8192]⟩ 1)
    (hr : (⟨1, ![8192]⟩ : Shape).ReducesTo [0] ⟨0, ![]⟩) (hu : 0 < (⟨0, ![]⟩ : Shape).numel) (hw : 1 < 32) :
    Host.reduceAdd (F := Ideal) (uitofp .f32 msk) (constant ⟨0, ![]⟩ .f32 0x00000000#32) hr hu
      = sitofp .f32 (Host.reduce IntOp.addi (extui 32 msk hw) (constantI ⟨0, ![]⟩ 32 0#32) hr hu) := by
  funext j
  -- the float side: the float zero plus the sum over every index of the bits' unsigned reads
  have hL : Host.reduceAdd (F := Ideal) (uitofp .f32 msk) (constant ⟨0, ![]⟩ .f32 0x00000000#32) hr hu j
      = 0 + ∑ i, (((msk i).toNat : ℝ) : EReal) := by
    refine (Ideal.hostReduceAdd_total hr (fun b => b.elim0) _ _ j).trans ?_
    rw [show constant (F := Ideal) ⟨0, ![]⟩ .f32 0x00000000#32 (Shape.Idx.first hu) = 0 from
      Ideal.ofBits_zero_f32]
    rfl
  -- the word side: the word of the natural sum of the bits
  have hR : Host.reduce IntOp.addi (extui 32 msk hw) (constantI ⟨0, ![]⟩ 32 0#32) hr hu j
      = BitVec.ofNat 32 (∑ i, (msk i).toNat) := by
    rw [Host.reduce_eq_fold, Finset.filter_true_of_mem (fun i _ => Subsingleton.elim _ _)]
    refine (fold_addi_eq_ofNat _ _).trans ?_
    congr 1
  -- the natural sum is at most the number of indices, 8192
  have hb : ∑ i, (msk i).toNat ≤ 8192 := by
    calc ∑ i, (msk i).toNat ≤ ∑ _i : (⟨1, ![8192]⟩ : Shape).Idx, 1 :=
          Finset.sum_le_sum (fun i _ => by have := (msk i).isLt; omega)
      _ = 8192 := by
          rw [Finset.sum_const, Finset.card_univ, Fintype.card_congr (Shape.rowMajor _), Fintype.card_fin]
          rfl
  rw [hL]
  show _ = (((Host.reduce IntOp.addi (extui 32 msk hw) (constantI ⟨0, ![]⟩ 32 0#32) hr hu j).toInt : ℝ) : EReal)
  rw [hR, toInt_ofNat_of_lt _ (by omega), zero_add, coe_sum_real]
  push_cast
  rfl

end Cert.Lib
-- ==== Proof.Means.lean ====
/-
  The mean of a vector over a mask of 8192 bits, in the two forms the two programs compute it.

  Both divide the masked sum (the entries under the mask, zero elsewhere, summed from zero) by the
  larger of the count and one.  One form counts by converting each bit to a float and summing the
  floats; the other widens each bit to a 32-bit integer, sums the integers and converts the sum.
  At the ideal instance the two counts are the same number (a count of at most 8192 ones never
  wraps a 32-bit word), so the two means are equal.
-/
import proofs.«124296_j27135603376234_2_alg».proof.Proof.LibCount

noncomputable section

namespace Cert.Means

open Idealize.ShloMosaic

/-- The vectors' shape. -/
abbrev SV : Shape := ⟨1, ![8192]⟩
/-- The scalar shape. -/
abbrev S0 : Shape := ⟨0, ![]⟩

/-- The masked sum: entries under the mask, the zero literal elsewhere, summed from the zero literal. -/
def maskedSum (bc : S0.BroadcastsInDim SV (![] : Fin 0 → Fin SV.rank)) (red : SV.ReducesTo [0] S0) (hu : 0 < S0.numel)
    (msk : IVec SV 1) (v : FVec Ideal SV .f32) : FVec Ideal S0 .f32 :=
  Host.reduceAdd (F := Ideal) (select msk v (broadcastInDim SV ![] bc (id (constant (F := Ideal) S0 .f32 0x00000000#32))))
    (constant (F := Ideal) S0 .f32 0x00000000#32) red hu

/-- The mean with the count taken as a sum of floats. -/
def meanF (bc : S0.BroadcastsInDim SV (![] : Fin 0 → Fin SV.rank)) (red : SV.ReducesTo [0] S0) (hu : 0 < S0.numel)
    (msk : IVec SV 1) (v : FVec Ideal SV .f32) : FVec Ideal S0 .f32 :=
  Host.divf (maskedSum bc red hu msk v)
    (maximumf (Host.reduceAdd (F := Ideal) (uitofp .f32 msk) (constant (F := Ideal) S0 .f32 0x00000000#32) red hu)
      (constant (F := Ideal) S0 .f32 0x3F800000#32))

/-- The mean with the count taken as a sum of 32-bit integers, converted afterwards. -/
def meanI (bc : S0.BroadcastsInDim SV (![] : Fin 0 → Fin SV.rank)) (red : SV.ReducesTo [0] S0) (hu : 0 < S0.numel) (hw : 1 < 32)
    (msk : IVec SV 1) (v : FVec Ideal SV .f32) : FVec Ideal S0 .f32 :=
  Host.divf (maskedSum bc red hu msk v)
    (maximumf (sitofp .f32 (Host.reduce IntOp.addi (extui 32 msk hw) (constantI S0 32 0#32) red hu))
      (constant (F := Ideal) S0 .f32 0x3F800000#32))

/-- The two means agree: the two counts are one number. -/
theorem meanF_eq_meanI (bc : S0.BroadcastsInDim SV (![] : Fin 0 → Fin SV.rank)) (red : SV.ReducesTo [0] S0) (hu : 0 < S0.numel) (hw : 1 < 32)
    (msk : IVec SV 1) (v : FVec Ideal SV .f32) : meanF bc red hu msk v = meanI bc red hu hw msk v := by
  unfold meanF meanI
  rw [Cert.Lib.count_mask msk red hu hw]

end Cert.Means

end
-- ==== Proof.KernelTail.lean ====
/-
  The idealized kernel's four results.

  After the region the host lines sum the 64 partial losses from zero and divide by 8192 (the loss),
  write a zero (the second result), and compute the last row's two masked means from the argument arrays
  alone: the last row's similarities, the masks "same label and similarity below one" and "different
  label", each masked sum divided by the larger of the mask's count (a sum of the bits as floats) and one.
  Read over the frame run, whose post names the output array (the partial losses) and leaves the
  argument arrays as launched, the four result buffers end at these terms of the arguments.
-/
import proofs.«124296_j27135603376234_2_alg».proof.Proof.KernelArray
import proofs.«124296_j27135603376234_2_alg».proof.Proof.KernelHost
import proofs.«124296_j27135603376234_2_alg».proof.Proof.KernelSum
import proofs.«124296_j27135603376234_2_alg».proof.Proof.KernelCell
import proofs.«124296_j27135603376234_2_alg».proof.Proof.Means
import Idealize.ShloMosaic.Lib.Pipeline.Value
import Idealize.ShloMosaic.Lib.StableHlo.Run
import Idealize.ShloMosaic.PureOps.Ideal

set_option maxRecDepth 16384

noncomputable section

namespace Cert.KernelIdeal.Tail

open Cert.KernelIdeal Cert.KernelIdeal.Gen Idealize.ShloMosaic Idealize.ShloMosaic.TcCoe Idealize.SL.Sem Idealize.ShloMosaic.StableHlo
open Cert.KernelIdeal.Arr (xs tgs)

variable (m : (ℓ : Loc nD τ sig) → Buf (Elt Ideal) ℓ)

/-- The embeddings as the lines after the region find them: as launched. -/
theorem wa_arg0 (c : Dev nD) :
    Pipeline.withArrays (cfgs 0).spec c (V0 m c) (fun w => (dats m 0 c).arrAt w (cfgs 0).N) (Proc.devRef .tc main_arg0) = xs m c :=
  (Pipeline.withArrays_of_ne _ c (V0 m c) _ main_arg0 (by exact (by decide : ∀ w, Pipeline.arrRef spec0 w ≠ main_arg0))).trans (V_main_arg0 m c)

/-- The labels likewise. -/
theorem wa_arg1 (c : Dev nD) :
    Pipeline.withArrays (cfgs 0).spec c (V0 m c) (fun w => (dats m 0 c).arrAt w (cfgs 0).N) (Proc.devRef .tc main_arg1) = tgs m c :=
  (Pipeline.withArrays_of_ne _ c (V0 m c) _ main_arg1 (by exact (by decide : ∀ w, Pipeline.arrRef spec0 w ≠ main_arg1))).trans (V_main_arg1 m c)

/-- The output array as they find it: the partial losses. -/
theorem wa_v3 (c : Dev nD) :
    Pipeline.withArrays (cfgs 0).spec c (V0 m c) (fun w => (dats m 0 c).arrAt w (cfgs 0).N) (Proc.devRef .tc main_v3) = Cert.KernelIdeal.Arr.G m c :=
  (Pipeline.withArrays_arr spec0 launch0.win.arr_inj c _ _ 3).trans (Cert.KernelIdeal.Arr.final m Cert.KernelIdeal.Cell.pay_eq c)

/-- The loss: zero plus the 64 partial losses, over 8192. -/
theorem tail_v5 (c : Dev nD) :
    Pipeline.afterTail₀ cfgs (dats m) 0 (V0 m) [hostOps1, hostOps1_1, hostOps1_2, hostOps1_3, hostOps1_4] c main_v5
      = Host.divf (F := Ideal) (fun _ => Cert.Spec.zero + ∑ t : Fin 64, Cert.Spec.blockLoss (xs m c) (tgs m c) t)
          (constant (F := Ideal) S_ .f32 0x46000000#32) := by
  unfold Pipeline.afterTail₀
  simp only [hostOps1, hostOps1_1, hostOps1_2, hostOps1_3, hostOps1_4, List.flatten_cons, List.flatten_nil, List.append_nil, List.cons_append, List.nil_append]
  after_results_simp
  rw [wa_v3, Cert.KernelIdeal.Sum.total_blocks (Cert.KernelIdeal.Arr.G m c) (fun t => Cert.Spec.blockLoss (xs m c) (tgs m c) t) (fun _ => rfl)]

/-- The second result: the zero literal. -/
theorem tail_cst_10 (c : Dev nD) :
    Pipeline.afterTail₀ cfgs (dats m) 0 (V0 m) [hostOps1, hostOps1_1, hostOps1_2, hostOps1_3, hostOps1_4] c main_cst_10
      = constant (F := Ideal) S_ .f32 0x00000000#32 := by
  unfold Pipeline.afterTail₀
  simp only [hostOps1, hostOps1_1, hostOps1_2, hostOps1_3, hostOps1_4, List.flatten_cons, List.flatten_nil, List.append_nil, List.cons_append, List.nil_append]
  after_results_simp

/-- The last row's same-label mean. -/
theorem tail_v28 (c : Dev nD) :
    Pipeline.afterTail₀ cfgs (dats m) 0 (V0 m) [hostOps1, hostOps1_1, hostOps1_2, hostOps1_3, hostOps1_4] c main_v28
      = Cert.Means.meanF bcast_S_S8192 reducesTo_S8192_S_d0 h_S_
          (fun j => Cert.Spec.posMask (xs m c) (tgs m c) (j 0)) (fun j => Cert.Spec.sim (xs m c) Cert.Spec.last (j 0)) := by
  unfold Pipeline.afterTail₀
  simp only [hostOps1, hostOps1_1, hostOps1_2, hostOps1_3, hostOps1_4, List.flatten_cons, List.flatten_nil, List.append_nil, List.cons_append, List.nil_append]
  after_results_simp
  rw [wa_arg0, wa_arg1]
  show Cert.Means.meanF bcast_S_S8192 reducesTo_S8192_S_d0 h_S_ (Cert.KernelIdeal.HostRead.posMaskK (xs m c) (tgs m c)) (Cert.KernelIdeal.HostRead.lastSim (xs m c)) = _
  rw [Cert.KernelIdeal.HostRead.posMaskK_eq, Cert.KernelIdeal.HostRead.lastSim_eq]

/-- The last row's different-label mean. -/
theorem tail_v29 (c : Dev nD) :
    Pipeline.afterTail₀ cfgs (dats m) 0 (V0 m) [hostOps1, hostOps1_1, hostOps1_2, hostOps1_3, hostOps1_4] c main_v29
      = Cert.Means.meanF bcast_S_S8192 reducesTo_S8192_S_d0 h_S_
          (fun j => Cert.Spec.negMask (tgs m c) (j 0)) (fun j => Cert.Spec.sim (xs m c) Cert.Spec.last (j 0)) := by
  unfold Pipeline.afterTail₀
  simp only [hostOps1, hostOps1_1, hostOps1_2, hostOps1_3, hostOps1_4, List.flatten_cons, List.flatten_nil, List.append_nil, List.cons_append, List.nil_append]
  after_results_simp
  rw [wa_arg0, wa_arg1]
  show Cert.Means.meanF bcast_S_S8192 reducesTo_S8192_S_d0 h_S_ (noti (Cert.KernelIdeal.HostRead.sameLast (tgs m c))) (Cert.KernelIdeal.HostRead.lastSim (xs m c)) = _
  rw [Cert.KernelIdeal.HostRead.negMaskK_eq, Cert.KernelIdeal.HostRead.lastSim_eq]

/-- The kernel's run with its four results named: every weakly fair execution terminates with the results
    at these terms of the launch contents of the arguments, which end unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v5)
          = Host.divf (F := Ideal) (fun _ => Cert.Spec.zero + ∑ t : Fin 64, Cert.Spec.blockLoss (xs m c) (tgs m c) t)
              (constant (F := Ideal) S_ .f32 0x46000000#32)
      ∧ r.2.mem ((c.tc : Thread nD τ).loc main_cst_10) = constant (F := Ideal) S_ .f32 0x00000000#32
      ∧ r.2.mem ((c.tc : Thread nD τ).loc main_v28)
          = Cert.Means.meanF bcast_S_S8192 reducesTo_S8192_S_d0 h_S_
              (fun j => Cert.Spec.posMask (xs m c) (tgs m c) (j 0)) (fun j => Cert.Spec.sim (xs m c) Cert.Spec.last (j 0))
      ∧ r.2.mem ((c.tc : Thread nD τ).loc main_v29)
          = Cert.Means.meanF bcast_S_S8192 reducesTo_S8192_S_d0 h_S_
              (fun j => Cert.Spec.negMask (tgs m c) (j 0)) (fun j => Cert.Spec.sim (xs m c) Cert.Spec.last (j 0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (tail_v5 m c),
     ((h c).2 main_cst_10 (Pipeline.mem_restRefs_of main_cst_10 (by decide) (by decide))).trans (tail_cst_10 m c),
     ((h c).2 main_v28 (Pipeline.mem_restRefs_of main_v28 (by decide) (by decide))).trans (tail_v28 m c),
     ((h c).2 main_v29 (Pipeline.mem_restRefs_of main_v29 (by decide) (by decide))).trans (tail_v29 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Tail

end
-- ==== Proof.RefRead.lean ====
import proofs.«124296_j27135603376234_2_alg».proof.Proof.Gen.ReferenceIdeal.Read
import proofs.«124296_j27135603376234_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefRead
open Cert.ReferenceIdeal Cert.ReferenceIdeal.Gen Cert.ReferenceIdeal.Read Idealize.ShloMosaic Idealize.ShloMosaic.ValueIdx

/-- The similarity matrix at `(i, j)`: the contraction over the 256 features of row `i` against the
    transposed operand's column `j`, which is row `j` of the same array. -/
theorem sim_apply (x : (⟨S8192x256, .f32⟩ : BufTy).Contents (Elt Ideal)) (i j : Fin 8192) :
    val_main_v1 (F := Ideal) x (ix2 i j) = Cert.Spec.sim x i j := by
  rw [val_main_v1_apply]
  unfold Cert.Spec.sim
  refine Finset.sum_congr rfl fun k _ => ?_
  rw [val_main_v0_apply]
  have e1 : lidx_main_v1 (ix2 i j) k = ix2 i k :=
    funext fun a => Fin.ext (by match a with | ⟨0, _⟩ => rfl | ⟨1, _⟩ => rfl)
  have e2 : idx_main_v0 (ridx_main_v1 (ix2 i j) k) = ix2 j k :=
    funext fun a => Fin.ext (by match a with | ⟨0, _⟩ => rfl | ⟨1, _⟩ => rfl)
  rw [e1, e2]

/-- The same-label matrix at `(i, j)`: the labels broadcast along columns and along rows, compared for equality. -/
theorem same_apply (tg : (⟨S8192, .i32⟩ : BufTy).Contents (Elt Ideal)) (i j : Fin 8192) :
    val_main_v6 (F := Ideal) tg (ix2 i j) = Cert.Spec.same tg i j := by
  rw [val_main_v6_apply, val_main_v4_apply, val_main_v2_apply, val_main_v5_apply, val_main_v3_apply]
  have e1 : idx_main_v2 (idx_main_v4 (ix2 i j)) = ix1 i :=
    funext fun a => Fin.ext (by match a with | ⟨0, _⟩ => rfl)
  have e2 : idx_main_v3 (idx_main_v5 (ix2 i j)) = ix1 j :=
    funext fun a => Fin.ext (by match a with | ⟨0, _⟩ => rfl)
  rw [e1, e2]
  rfl

/-- The same-label pass's selected matrix at `(i, j)`: `1 - s` where the label bit, `s < 1` and `s < margin` all hold,
    the zero literal elsewhere. -/
theorem pos_cell_apply (x : (⟨S8192x256, .f32⟩ : BufTy).Contents (Elt Ideal))
    (tg : (⟨S8192, .i32⟩ : BufTy).Contents (Elt Ideal)) (i j : Fin 8192) :
    val_main_v19 (F := Ideal) x tg (ix2 i j)
      = Cert.Spec.posCell (Cert.Spec.same tg i j) (Cert.Spec.sim x i j) := by
  rw [val_main_v19_apply, val_main_v13_apply, val_main_v9_apply, val_main_v8_apply, val_main_v12_apply,
    val_main_v18_apply, val_main_v7_apply, val_main_v11_apply, val_main_v17_apply, val_main_call0_v1_apply,
    same_apply, sim_apply]
  rfl

/-- The different-label pass's selected matrix at `(i, j)`: `s` where the label bit is off and `s > 1/2`,
    the zero literal elsewhere. -/
theorem neg_cell_apply (x : (⟨S8192x256, .f32⟩ : BufTy).Contents (Elt Ideal))
    (tg : (⟨S8192, .i32⟩ : BufTy).Contents (Elt Ideal)) (i j : Fin 8192) :
    val_main_v21 (F := Ideal) x tg (ix2 i j)
      = Cert.Spec.negCell (Cert.Spec.same tg i j) (Cert.Spec.sim x i j) := by
  rw [val_main_v21_apply, val_main_v16_apply, val_main_v10_apply, val_main_v15_apply, val_main_v14_apply,
    val_main_call1_v1_apply, same_apply, sim_apply]
  rfl

/-- The same-label pass's total: the zero literal plus the sum over every pair, written as the double sum over rows
    and columns. -/
theorem loss_pos (x : (⟨S8192x256, .f32⟩ : BufTy).Contents (Elt Ideal))
    (tg : (⟨S8192, .i32⟩ : BufTy).Contents (Elt Ideal)) :
    val_main_v20 (F := Ideal) x tg
      = fun _ => Cert.Spec.zero + ∑ i : Fin 8192, ∑ j : Fin 8192,
          Cert.Spec.posCell (Cert.Spec.same tg i j) (Cert.Spec.sim x i j) := by
  funext i
  rw [val_main_v20_apply, sum_idx2]
  refine congrArg (fun t => Cert.Spec.zero + t) ?_
  exact Finset.sum_congr rfl fun a _ => Finset.sum_congr rfl fun b _ => pos_cell_apply x tg a b

/-- The different-label pass's total, likewise. -/
theorem loss_neg (x : (⟨S8192x256, .f32⟩ : BufTy).Contents (Elt Ideal))
    (tg : (⟨S8192, .i32⟩ : BufTy).Contents (Elt Ideal)) :
    val_main_v22 (F := Ideal) x tg
      = fun _ => Cert.Spec.zero + ∑ i : Fin 8192, ∑ j : Fin 8192,
          Cert.Spec.negCell (Cert.Spec.same tg i j) (Cert.Spec.sim x i j) := by
  funext i
  rw [val_main_v22_apply, sum_idx2]
  refine congrArg (fun t => Cert.Spec.zero + t) ?_
  exact Finset.sum_congr rfl fun a _ => Finset.sum_congr rfl fun b _ => neg_cell_apply x tg a b

/-- The slice at row 8191 followed by the `[1, 8192] → [8192]` reshape reads the matrix at `(last, q)`:
    the row offset is `8191 + 0`, and the column is `q mod 8192 = q`. -/
theorem last_row_idx (q : Fin 8192) :
    idx_main_v25 (idx_main_v26 (ix1 q)) = ix2 Cert.Spec.last q :=
  funext fun a => Fin.ext (by
    match a with
    | ⟨0, _⟩ => rfl
    | ⟨1, _⟩ => exact Nat.mod_eq_of_lt q.isLt)

/-- The similarity matrix's last row. -/
theorem last_sim (x : (⟨S8192x256, .f32⟩ : BufTy).Contents (Elt Ideal)) :
    val_main_v26 (F := Ideal) x = fun j => Cert.Spec.sim x Cert.Spec.last (j 0) := by
  funext j
  obtain ⟨q, rfl⟩ : ∃ q : Fin 8192, j = ix1 q := ⟨j 0, eq_ix1 j⟩
  rw [val_main_v26_apply, val_main_v25_apply, last_row_idx, sim_apply]

/-- The last row of the same-label-and-below-one matrix. -/
theorem last_pos (x : (⟨S8192x256, .f32⟩ : BufTy).Contents (Elt Ideal))
    (tg : (⟨S8192, .i32⟩ : BufTy).Contents (Elt Ideal)) :
    val_main_v28 (F := Ideal) x tg = fun j => Cert.Spec.posMask x tg (j 0) := by
  funext j
  obtain ⟨q, rfl⟩ : ∃ q : Fin 8192, j = ix1 q := ⟨j 0, eq_ix1 j⟩
  rw [val_main_v28_apply, val_main_v27_apply]
  rw [show idx_main_v27 (idx_main_v28 (ix1 q)) = ix2 Cert.Spec.last q from last_row_idx q]
  rw [val_main_v9_apply, val_main_v8_apply, val_main_v7_apply, same_apply, sim_apply]
  rfl

/-- The last row of the different-label matrix. -/
theorem last_neg (tg : (⟨S8192, .i32⟩ : BufTy).Contents (Elt Ideal)) :
    val_main_v30 (F := Ideal) tg = fun j => Cert.Spec.negMask tg (j 0) := by
  funext j
  obtain ⟨q, rfl⟩ : ∃ q : Fin 8192, j = ix1 q := ⟨j 0, eq_ix1 j⟩
  rw [val_main_v30_apply, val_main_v29_apply]
  rw [show idx_main_v29 (idx_main_v30 (ix1 q)) = ix2 Cert.Spec.last q from last_row_idx q]
  rw [val_main_v10_apply, same_apply]
  rfl

end Cert.ReferenceIdeal.RefRead

end
-- ==== Proof.RefResults.lean ====
import proofs.«124296_j27135603376234_2_alg».proof.Proof.Gen.ReferenceIdeal.Read
import proofs.«124296_j27135603376234_2_alg».proof.Proof.RefRead
import proofs.«124296_j27135603376234_2_alg».proof.Proof.Means
import proofs.«124296_j27135603376234_2_alg».proof.Proof.Spec

noncomputable section

open scoped BigOperators

namespace Cert.ReferenceIdeal.RefResults
open Cert.ReferenceIdeal Cert.ReferenceIdeal.Gen Cert.ReferenceIdeal.Read Idealize.ShloMosaic Idealize.ShloMosaic.TcCoe Idealize.SL.Sem

/-- The loss result: the two passes' totals added entrywise (at the extended reals the float sum of two
    constant functions is the constant function of the sum), divided by the literal 8192. -/
theorem loss_eq (x : (⟨S8192x256, .f32⟩ : BufTy).Contents (Elt Ideal)) (tg : (⟨S8192, .i32⟩ : BufTy).Contents (Elt Ideal)) :
    val_main_v24 (F := Ideal) x tg
      = Host.divf (F := Ideal)
        (fun _ => (Cert.Spec.zero + ∑ i : Fin 8192, ∑ j : Fin 8192,
                      Cert.Spec.posCell (Cert.Spec.same tg i j) (Cert.Spec.sim x i j))
                + (Cert.Spec.zero + ∑ i : Fin 8192, ∑ j : Fin 8192,
                      Cert.Spec.negCell (Cert.Spec.same tg i j) (Cert.Spec.sim x i j)))
        (constant (F := Ideal) S_ .f32 0x46000000#32) := by
  unfold val_main_v24 val_main_v23
  rw [RefRead.loss_pos, RefRead.loss_neg]
  rfl

/-- The same-label mean: the last row of the similarity matrix under the last row's same-label-and-below-one mask,
    the masked sum from zero over the larger of the integer count and one. -/
theorem pos_mean_eq (x : (⟨S8192x256, .f32⟩ : BufTy).Contents (Elt Ideal)) (tg : (⟨S8192, .i32⟩ : BufTy).Contents (Elt Ideal)) :
    val_main_v37 (F := Ideal) x tg
      = Cert.Means.meanI bcast_S_S8192 reducesTo_S8192_S_d0 h_S_ natLt_1_32
        (fun j => Cert.Spec.posMask x tg (j 0)) (fun j => Cert.Spec.sim x Cert.Spec.last (j 0)) := by
  unfold val_main_v37 val_main_v36 val_main_v35 val_main_v34 val_main_v33 val_main_v32 val_main_v31
    val_main_call2_v1 val_main_call2_v0
  rw [RefRead.last_pos, RefRead.last_sim]
  unfold Cert.Means.meanI Cert.Means.maskedSum
  rfl

/-- The different-label mean, likewise under the last row's different-label mask. -/
theorem neg_mean_eq (x : (⟨S8192x256, .f32⟩ : BufTy).Contents (Elt Ideal)) (tg : (⟨S8192, .i32⟩ : BufTy).Contents (Elt Ideal)) :
    val_main_v44 (F := Ideal) x tg
      = Cert.Means.meanI bcast_S_S8192 reducesTo_S8192_S_d0 h_S_ natLt_1_32
        (fun j => Cert.Spec.negMask tg (j 0)) (fun j => Cert.Spec.sim x Cert.Spec.last (j 0)) := by
  unfold val_main_v44 val_main_v43 val_main_v42 val_main_v41 val_main_v40 val_main_v39 val_main_v38
    val_main_call3_v1 val_main_call3_v0
  rw [RefRead.last_neg, RefRead.last_sim]
  unfold Cert.Means.meanI Cert.Means.maskedSum
  rfl

/-- Every weakly fair execution of the reference terminates with its four results at these terms of the two
    arguments' launch contents, the arguments unchanged: the run's composed terms are the stages above. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24)
          = Host.divf (F := Ideal)
        (fun _ => (Cert.Spec.zero + ∑ i : Fin 8192, ∑ j : Fin 8192,
                      Cert.Spec.posCell (Cert.Spec.same (m ((c.tc : Thread nD τ).loc main_arg1)) i j) (Cert.Spec.sim (m ((c.tc : Thread nD τ).loc main_arg0)) i j))
                + (Cert.Spec.zero + ∑ i : Fin 8192, ∑ j : Fin 8192,
                      Cert.Spec.negCell (Cert.Spec.same (m ((c.tc : Thread nD τ).loc main_arg1)) i j) (Cert.Spec.sim (m ((c.tc : Thread nD τ).loc main_arg0)) i j)))
        (constant (F := Ideal) S_ .f32 0x46000000#32)
      ∧ r.2.mem ((c.tc : Thread nD τ).loc main_cst_15) = constant (F := Ideal) S_ .f32 0x00000000#32
      ∧ r.2.mem ((c.tc : Thread nD τ).loc main_v37)
          = Cert.Means.meanI bcast_S_S8192 reducesTo_S8192_S_d0 h_S_ natLt_1_32
        (fun j => Cert.Spec.posMask (m ((c.tc : Thread nD τ).loc main_arg0)) (m ((c.tc : Thread nD τ).loc main_arg1)) (j 0)) (fun j => Cert.Spec.sim (m ((c.tc : Thread nD τ).loc main_arg0)) Cert.Spec.last (j 0))
      ∧ r.2.mem ((c.tc : Thread nD τ).loc main_v44)
          = Cert.Means.meanI bcast_S_S8192 reducesTo_S8192_S_d0 h_S_ natLt_1_32
        (fun j => Cert.Spec.negMask (m ((c.tc : Thread nD τ).loc main_arg1)) (j 0)) (fun j => Cert.Spec.sim (m ((c.tc : Thread nD τ).loc main_arg0)) Cert.Spec.last (j 0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c).1.trans ((val_main_v24_eq _ _).trans (loss_eq _ _)),
       (h c).2.1,
       (h c).2.2.1.trans ((val_main_v37_eq _ _).trans (pos_mean_eq _ _)),
       (h c).2.2.2.1.trans ((val_main_v44_eq _ _).trans (neg_mean_eq _ _)),
       (h c).2.2.2.2.1,
       (h c).2.2.2.2.2⟩)
    (Cert.ReferenceIdeal.Value.run (F := Ideal) m ρ)

end Cert.ReferenceIdeal.RefResults

end
-- ==== Proof.Algebra.lean ====
/-
  Two facts about the pair contributions, over the vocabulary of Spec.lean.

  * One pair: the fused contribution is the sum of the two-pass contributions. For a same-label pair the
    different-label pass contributes zero and the extra test "below one" of the same-label pass is implied by
    "below the first margin", because that margin is below one. For a different-label pair the same-label pass
    contributes zero.
  * All pairs: the 64 blocks of 128 rows tile the 8192 rows, so the loss summed block by block is the sum over
    every ordered pair; a sum of sums of two terms is the sum of the two sums (extended reals under addition are a
    commutative monoid), and adding the literal zero changes nothing.
-/
import proofs.«124296_j27135603376234_2_alg».proof.Proof.Spec
import Idealize.ShloMosaic.PureOps.Ideal.Laws
import Mathlib.Algebra.BigOperators.Fin
import Mathlib.Data.EReal.Basic

noncomputable section

open scoped BigOperators

namespace Cert.Spec

open Idealize.ShloMosaic Idealize.ShloMosaic.ValueIdx

/-- The literal zero is the extended real zero. -/
theorem zero_eq : zero = 0 := Ideal.ofBits_zero_f32

/-- The literal one is the extended real one. -/
theorem one_eq : one = 1 := by
  unfold one
  simp [Ideal.ofBits, Ideal.ieee, -EReal.coe_mul]; norm_num

/-- The first margin's word has exponent field 126 and fraction 6710886: the real (2^23 + 6710886) / 2^24. -/
theorem marginSame_eq : marginSame = ((15099494 / 16777216 : ℝ) : EReal) := by
  unfold marginSame
  simp [Ideal.ofBits, Ideal.ieee, -EReal.coe_mul]; norm_num

/-- The first margin is below one. -/
theorem marginSame_lt_one : marginSame < one := by
  rw [marginSame_eq, one_eq, ← EReal.coe_one, EReal.coe_lt_coe_iff]
  norm_num

/-- Adding the bit tests: for a same-label pair the different-label term is zero and "below the first margin"
    implies "below one"; for a different-label pair the same-label term is zero. -/
theorem cell_split (sm : BitVec 1) (s : EReal) : cell sm s = posCell sm s + negCell sm s := by
  have hlt : s < marginSame → s < one := fun h => lt_trans h marginSame_lt_one
  unfold cell posCell negCell Scalar.select IntOp.andi Ideal.cmp
  rw [zero_eq]
  rcases BitVec.eq_zero_or_eq_one sm with rfl | rfl
  · by_cases h : marginDiff < s <;> simp [h]
  · by_cases h1 : s < marginSame
    · have h2 := hlt h1
      simp [h1, h2]
    · simp [h1]

/-- The 64 blocks of 128 rows tile the 8192 rows: row `128 t + r` runs over every row exactly once as `(t, r)`
    runs over the pairs. -/
theorem sum_rows {M : Type*} [AddCommMonoid M] (f : Fin 8192 → M) :
    ∑ t : Fin 64, ∑ r : Fin 128, f (row t r) = ∑ i : Fin 8192, f i := by
  have h := (finProdFinEquiv (m := 64) (n := 128)).sum_comp (fun i : Fin (64 * 128) => f i)
  rw [Fintype.sum_prod_type] at h
  refine Eq.trans ?_ h
  refine Finset.sum_congr rfl fun t _ => Finset.sum_congr rfl fun r _ => congrArg f (Fin.ext ?_)
  show 128 * t.val + r.val = r.val + 128 * t.val
  omega

/-- The loss summed block by block is the same-label sum plus the different-label sum, each over every ordered
    pair of rows. -/
theorem loss_split (x : SX.Idx → EReal) (tg : ST.Idx → BitVec 32) :
    zero + ∑ t : Fin 64, blockLoss x tg t
      = (zero + ∑ i : Fin 8192, ∑ j : Fin 8192, posCell (same tg i j) (sim x i j))
        + (zero + ∑ i : Fin 8192, ∑ j : Fin 8192, negCell (same tg i j) (sim x i j)) := by
  have hblk : ∑ t : Fin 64, blockLoss x tg t
      = ∑ i : Fin 8192, ∑ j : Fin 8192, cell (same tg i j) (sim x i j) := by
    unfold blockLoss
    exact sum_rows (fun i => ∑ j : Fin 8192, cell (same tg i j) (sim x i j))
  rw [hblk, zero_eq, zero_add, zero_add, zero_add]
  simp only [cell_split, Finset.sum_add_distrib]

end Cert.Spec

end
-- ==== Proof.lean ====
/-
  The certificate: a fused pairwise two-margin contrastive loss against its two-pass reference.

  Both programs take embeddings `x : [8192, 256]` and labels `tg : [8192]` and return four scalars.
  With `s(i, j)` the similarity of rows `i` and `j` (the sum over the 256 features of the products; at the
  ideal instance the kernel's narrowing of its operands is the identity and its blocked matrix product is
  the same sum) the results are:

  * the loss.  The kernel sums, block by block of 128 rows and row by row, the fused contribution of each
    pair — for a same-label pair `1 - s` when `s` is below the first margin, for a different-label pair `s`
    when it is above the second margin, else zero — then sums the 64 partial losses and divides by 8192.
    The reference sums the same-label contributions (also asking `s < 1`, which the first margin, a float
    below one, already implies) and the different-label contributions over the whole matrix separately,
    adds the two totals and divides by 8192.  Pair by pair the fused contribution is the sum of the two
    (one of them is zero), a sum of sums is the sum of the summands in any grouping (the extended reals
    under addition are a commutative monoid: no finiteness is needed), and the blocks tile the rows.
  * a zero literal, on both sides.
  * the last row's two masked means: the same masks and the same masked sums on both sides; the kernel
    counts the mask by summing its bits as floats, the reference by summing them as 32-bit integers and
    converting — one number, since at most 8192 ones never wrap a 32-bit word.

  The frames of the two kernels' programs are the generated frame theorems; the reference's is its
  generated run with the results dropped.  The idealization rewrote nothing, so `preserves` is trivial.
-/
import proofs.«124296_j27135603376234_2_alg».proof.Defs
import proofs.«124296_j27135603376234_2_alg».proof.Proof.Gen.Kernel
import proofs.«124296_j27135603376234_2_alg».proof.Proof.Gen.Kernel.Skeleton
import proofs.«124296_j27135603376234_2_alg».proof.Proof.Gen.Kernel.Launch
import proofs.«124296_j27135603376234_2_alg».proof.Proof.Gen.Kernel.Points
import proofs.«124296_j27135603376234_2_alg».proof.Proof.Gen.Kernel.Frame
import proofs.«124296_j27135603376234_2_alg».proof.Proof.Gen.KernelIdeal
import proofs.«124296_j27135603376234_2_alg».proof.Proof.Gen.KernelIdeal.Skeleton
import proofs.«124296_j27135603376234_2_alg».proof.Proof.Gen.KernelIdeal.Launch
import proofs.«124296_j27135603376234_2_alg».proof.Proof.Gen.KernelIdeal.Points
import proofs.«124296_j27135603376234_2_alg».proof.Proof.Gen.KernelIdeal.Frame
import proofs.«124296_j27135603376234_2_alg».proof.Proof.Gen.ReferenceIdeal
import proofs.«124296_j27135603376234_2_alg».proof.Proof.Gen.Pre_finite_inputs
import proofs.«124296_j27135603376234_2_alg».proof.Proof.Gen.ReferenceIdeal.Run
import proofs.«124296_j27135603376234_2_alg».proof.Proof.Gen.ReferenceIdeal.Read
import proofs.«124296_j27135603376234_2_alg».proof.Proof.KernelTail
import proofs.«124296_j27135603376234_2_alg».proof.Proof.RefResults
import proofs.«124296_j27135603376234_2_alg».proof.Proof.Algebra
import proofs.«124296_j27135603376234_2_alg».proof.Proof.Means
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the results dropped. -/
theorem frame_referenceIdeal : Cert.frame_ReferenceIdeal := fun m ρ _ =>
  (θ_run Cert.ReferenceIdeal.defs _ _).mono (fun _ h c => (h c).2.2.2.2)
    (Cert.ReferenceIdeal.Value.run (F := Ideal) m ρ)

/-- The idealization rewrote no operation. -/
theorem preserves : Cert.preserves_Kernel_KernelIdeal := trivial

/-- From memories agreeing on the arguments both idealized programs end with the same four results:
    the block-by-block fused loss is the two-pass loss, the zero is the zero, and the two masked means
    agree because the two ways of counting a mask do. -/
theorem algebraic : Cert.algebraic_KernelIdeal_ReferenceIdeal := by
  intro m ρ m' ρ' _ hagree
  refine ⟨_, _, _, _, Cert.KernelIdeal.Tail.run m ρ, ?_⟩
  refine (θ_run Cert.ReferenceIdeal.defs _ _).mono (fun _ h c => ⟨?_, ?_, ?_, ?_, (h c).2.2.2.2.1, (h c).2.2.2.2.2⟩)
    (Cert.ReferenceIdeal.RefResults.run m' ρ')
  · rw [(h c).1, (hagree c).1, (hagree c).2, ← Cert.Spec.loss_split]
  · rw [(h c).2.1]
  · rw [(h c).2.2.1, (hagree c).1, (hagree c).2]
    exact (Cert.Means.meanF_eq_meanI _ _ _ _ _ _).symm
  · rw [(h c).2.2.2.1, (hagree c).1, (hagree c).2]
    exact (Cert.Means.meanF_eq_meanI _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
